-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩
abbrev S4x16x2048x2048 : Shape := ⟨4, ![4, 16, 2048, 2048]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4x16x2048x64 .f32) (main_arg1 : FVec F S4x16x2048x64 .f32) (main_arg2 : FVec F S4x16x2048x64 .f32) (main_arg3 : FVec F S_ .f32) (main_arg4 : IVec S4x16x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4x16x2048x64 : Shape := ⟨4, ![4, 16, 2048, 64]⟩
abbrev S_ : Shape := ⟨0, ![]⟩
abbrev S4x16x2048x2048 : Shape := ⟨4, ![4, 16, 2048, 2048]⟩
abbrev S64x2048x64 : Shape := ⟨3, ![64, 2048, 64]⟩
abbrev S64x2048x2048 : Shape := ⟨3, ![64, 2048, 2048]⟩
abbrev S1x1 : Shape := ⟨2, ![1, 1]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S4x16x2048x2048, .i1⟩
  | .hbm, ⟨5, _⟩ => ⟨S64x2048x64, .f32⟩
  | .hbm, ⟨6, _⟩ => ⟨S64x2048x64, .f32⟩
  | .hbm, ⟨7, _⟩ => ⟨S64x2048x64, .f32⟩
  | .hbm, ⟨8, _⟩ => ⟨S64x2048x2048, .i1⟩
  | .hbm, ⟨9, _⟩ => ⟨S1x1, .f32⟩
  | .hbm, ⟨10, _⟩ => ⟨S64x2048x2048, .i32⟩
  | .hbm, ⟨11, _⟩ => ⟨S64x2048x64, .f32⟩
  | .hbm, ⟨12, _⟩ => ⟨S64x2048x2048, .f32⟩
  | .hbm, ⟨13, _⟩ => ⟨S4x16x2048x64, .f32⟩
  | .hbm, ⟨14, _⟩ => ⟨S4x16x2048x2048, .f32⟩
  | .local _ .vmem, ⟨0, _⟩ => ⟨S1x1, .f32⟩
  | .local _ .vmem, ⟨1, _⟩ => ⟨S1x512x64, .f32⟩
  | .local _ .vmem, ⟨2, _⟩ => ⟨S1x512x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x512x2048, .i32⟩
  | .local _ .vmem, ⟨8, _⟩ => ⟨S1x512x2048, .i32⟩
  | .local _ .vmem, ⟨9, _⟩ => ⟨S1x512x64, .f32⟩
  | .local _ .vmem, ⟨10, _⟩ => ⟨S1x512x64, .f32⟩
  | .local _ .vmem, ⟨11, _⟩ => ⟨S1x512x2048, .f32⟩
  | .local _ .vmem, ⟨12, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x16x2048x64_S64x2048x64 : S4x16x2048x64.ShapeCasts S64x2048x64
  shapeCasts_S4x16x2048x2048_S64x2048x2048 : S4x16x2048x2048.ShapeCasts S64x2048x2048
  shapeCasts_S_S1x1 : S_.ShapeCasts S1x1
  natLt_1_32 : 1 < 32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x2048x64.size a
  hwx0_1 : ∀ i : grid0.Coords, EltTy.bits .f32 = 32 ∨ (Rect.block (s := S64x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S64x2048x64.size a
  hwx0_3 : ∀ i : grid0.Coords, EltTy.bits .f32 = 32 ∨ (Rect.block (s := S64x2048x64) S1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .i32 = 32 ∨ (Rect.block (s := S64x2048x2048) S1x512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S64x2048x64.size a
  hwx0_5 : ∀ i : grid0.Coords, EltTy.bits .f32 = 32 ∨ (Rect.block (s := S64x2048x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S64x2048x2048.size a
  hwx0_6 : ∀ i : grid0.Coords, EltTy.bits .f32 = 32 ∨ (Rect.block (s := S64x2048x2048) S1x512x2048.size (cc0_transform_6 i) (hinb0_6 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v4) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S4x16x2048x2048, .i1⟩
  | .hbm, ⟨5, _⟩ => ⟨S4x16x2048x2048, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048, .f32⟩
  | .hbm, ⟨13, _⟩ => ⟨S_, .f32⟩
  | .hbm, ⟨14, _⟩ => ⟨S4x16x2048, .f32⟩
  | .hbm, ⟨15, _⟩ => ⟨S4x16x2048, .f32⟩
  | .hbm, ⟨16, _⟩ => ⟨S4x16x2048x1, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_call0_v0 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Finite.lean ====
/-
  From the precondition to real numbers.

  The precondition is the conjunction of four `all`s: every entry of Q, of K, of V, and the scale has absolute value
  below plus infinity. On the extended reals |x| is max(x, -x), and max(x, -x) < +inf rules out both infinities, so x is
  a real number. The mask is not constrained.
-/
import proofs.«108441_j12790412607562_2_alg».proof.Pre_finite_inputs
import proofs.«108441_j12790412607562_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.MaskedAttention.Finite

open Idealize.ShloMosaic Cert.Pre_finite_inputs Cert.Pre_finite_inputs.Gen

/-- The f32 word of plus infinity denotes the top of the extended reals. -/
theorem inf_word : Ideal.ofBits .f32 0x7F800000#32 = (⊤ : EReal) := by simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = r := by
  rw [inf_word] at h
  induction x using EReal.rec with
  | bot => exfalso; revert h; simp [Ideal.cmp]
  | top => exfalso; revert h; simp [Ideal.cmp]
  | coe r => exact ⟨r, rfl⟩

instance : Subsingleton S_.Idx := ⟨fun a b => funext fun d => d.elim0⟩

/-- Under the precondition every entry of the three float arrays, and the scale, is a real number. -/
theorem finite_of_pre (a0 a1 a2 : FVec Ideal S4x16x2048x64 .f32) (a3 : FVec Ideal S_ .f32) (a4 : IVec S4x16x2048x2048 1)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨r0, r1⟩, r2⟩, r3⟩ := h0
  refine ⟨fun i => ?_, fun i => ?_, fun i => ?_, fun i => ?_⟩
  · exact real_of_abs_lt (a0 i) (Host.reduce_andi_all _ _ _ _ ValueIdx.ix0 r0 i)
  · exact real_of_abs_lt (a1 i) (Host.reduce_andi_all _ _ _ _ ValueIdx.ix0 r1 i)
  · exact real_of_abs_lt (a2 i) (Host.reduce_andi_all _ _ _ _ ValueIdx.ix0 r2 i)
  · exact real_of_abs_lt (a3 i) (Host.reduce_andi_all _ _ _ _ ValueIdx.ix0 r3 i)

end Cert.MaskedAttention.Finite

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«108441_j12790412607562_2_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.Spec.lean ====
/-
  Masked scaled dot-product attention over [4, 16, 2048, ·] arrays, as ONE function of the argument arrays, entry by entry,
  on the extended reals.

  For batch b, head h, query row q and key row k the raw score is (sum over d of Q[b,h,q,d] * K[b,h,k,d]) * s. Where the
  mask bit at (b,h,q,k) is set the score is replaced by a fixed small literal (not by minus infinity). The attention
  weights are the softmax of each row of scores; the context is the weights applied to V:
  ctx[b,h,q,d] = sum over k of attn[b,h,q,k] * V[b,h,k,d].

  One algebraic law is recorded here. A program may scale Q by s BEFORE the contraction: sum over d of
  (Q * s) * K. That equals the sum scaled afterwards when every factor is a real number — a scalar moves across a finite
  sum of reals — and it is the only place the finiteness of the inputs is used (at an infinite s and rows of mixed sign
  the two sides differ).
-/
import Idealize.ShloMosaic.PureOps.Ideal.Laws
import Idealize.ShloMosaic.Lib.ValueIdx
import proofs.«108441_j12790412607562_2_alg».proof.Proof.LibSoftmaxRows

noncomputable section

open scoped BigOperators

namespace Cert.MaskedAttention

open Idealize.ShloMosaic Idealize.ShloMosaic.ValueIdx Cert.Lib.SoftmaxRows

/-- The shape of Q, K, V and of the context. -/
abbrev Sqkv : Shape := ⟨4, ![4, 16, 2048, 64]⟩
/-- The shape of the mask and of the attention weights. -/
abbrev Sattn : Shape := ⟨4, ![4, 16, 2048, 2048]⟩

/-- The literal a masked score is replaced by (the f32 nearest 1e-9), as the word that spells it. -/
abbrev fill : EReal := Ideal.ofBits .f32 0x3089705F#32

/-- The coercion of reals into the extended reals commutes with a finite sum. -/
theorem coe_sum {ι : Type} (S : Finset ι) (f : ι → ℝ) :
    (∑ d ∈ S, ((f d : ℝ) : EReal)) = ((∑ d ∈ S, f d : ℝ) : EReal) := by
  classical
  refine Finset.induction_on S ?_ ?_
  · simp
  · intro a S ha ih
    rw [Finset.sum_insert ha, Finset.sum_insert ha, ih, EReal.coe_add]

/-- A real scalar moves across a finite sum of products of reals: scaling the left factors first, or the sum afterwards. -/
theorem sum_scaled {n : Nat} (u v : Fin n → EReal) (s : EReal)
    (hu : ∀ d, ∃ r : ℝ, u d = r) (hv : ∀ d, ∃ r : ℝ, v d = r) (hs : ∃ r : ℝ, s = r) :
    ∑ d, (u d * s) * v d = (∑ d, u d * v d) * s := by
  choose u' hu' using hu
  choose v' hv' using hv
  obtain ⟨s', rfl⟩ := hs
  simp only [hu', hv', ← EReal.coe_mul, coe_sum]
  refine congrArg (fun r : ℝ => (r : EReal)) ?_
  rw [Finset.sum_mul]
  exact Finset.sum_congr rfl fun d _ => by ring

section
variable (Q K V : Sqkv.Idx → EReal) (s : EReal) (Mk : Sattn.Idx → BitVec 1)

/-- The masked score of query row q against key row k. -/
def score (b : Fin 4) (h : Fin 16) (q k : Fin 2048) : EReal :=
  Scalar.select (Mk (ix4 b h q k)) fill ((∑ d : Fin 64, Q (ix4 b h q d) * K (ix4 b h k d)) * s)

/-- The attention weight: the softmax of query row q's scores, at key k. -/
def attn (b : Fin 4) (h : Fin 16) (q k : Fin 2048) : EReal :=
  softmax (fun k' : Fin 2048 => score Q K s Mk b h q k') k

/-- The context: row q's weights applied to V's column d. -/
def ctx (b : Fin 4) (h : Fin 16) (q : Fin 2048) (d : Fin 64) : EReal :=
  ∑ k : Fin 2048, attn Q K s Mk b h q k * V (ix4 b h k d)

/-- The attention weights as an array. -/
def attnArr : Sattn.Idx → EReal := fun i => attn Q K s Mk (i 0) (i 1) (i 2) (i 3)
/-- The context as an array. -/
def ctxArr : Sqkv.Idx → EReal := fun i => ctx Q K V s Mk (i 0) (i 1) (i 2) (i 3)

/-- With every entry of Q and K and the scale a real number, the score computed from Q scaled BEFORE the contraction is
    the score. -/
theorem score_of_prescaled (hQ : ∀ i, ∃ r : ℝ, Q i = r) (hK : ∀ i, ∃ r : ℝ, K i = r) (hs : ∃ r : ℝ, s = r)
    (b : Fin 4) (h : Fin 16) (q k : Fin 2048) :
    Scalar.select (Mk (ix4 b h q k)) fill (∑ d : Fin 64, (Q (ix4 b h q d) * s) * K (ix4 b h k d))
      = score Q K s Mk b h q k :=
  congrArg (Scalar.select (Mk (ix4 b h q k)) fill)
    (sum_scaled (fun d => Q (ix4 b h q d)) (fun d => K (ix4 b h k d)) s (fun d => hQ _) (fun d => hK _) hs)

end

end Cert.MaskedAttention

end
-- ==== Proof.RefSide.lean ====
/-
  The reference program's two results are the specification's arrays.

  The reference contracts Q against K over d and scales the sum, replaces the masked scores by the literal, takes each
  row's maximum from minus infinity (and once more the maximum with minus infinity, which changes nothing), subtracts it,
  exponentiates, sums each row, divides, and contracts the weights against V over k. Read stage by stage at an entry
  (b, h, q, k) this is the specification's `attn`, and the last stage at (b, h, q, d) its `ctx`.
-/
import proofs.«108441_j12790412607562_2_alg».proof.Proof.Gen.ReferenceIdeal.Read
import proofs.«108441_j12790412607562_2_alg».proof.Proof.Spec

noncomputable section

open scoped BigOperators

namespace Cert.MaskedAttention.Ref

open Cert.ReferenceIdeal Cert.ReferenceIdeal.Gen Cert.ReferenceIdeal.Read
open Idealize.ShloMosaic Idealize.ShloMosaic.ValueIdx Cert.Lib.SoftmaxRows Cert.MaskedAttention

variable (x0 x1 x2 : (⟨S4x16x2048x64, .f32⟩ : BufTy).Contents (Elt Ideal))
  (x3 : (⟨S_, .f32⟩ : BufTy).Contents (Elt Ideal)) (x4 : (⟨S4x16x2048x2048, .i1⟩ : BufTy).Contents (Elt Ideal))

/-! ## The stages' index maps at an index given by coordinates -/

theorem lidx0 (b : Fin 4) (h : Fin 16) (q k : Fin 2048) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)
theorem ridx0 (b : Fin 4) (h : Fin 16) (q k : Fin 2048) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)
theorem idx78 (b : Fin 4) (h : Fin 16) (q k : Fin 2048) : idx_main_v7 (idx_main_v8 (ix4 b h q k)) = ix3 b h q :=
  funext fun a => Fin.ext (by match a with | ⟨0, _⟩ => rfl | ⟨1, _⟩ => rfl | ⟨2, _⟩ => rfl)
theorem idx1213 (b : Fin 4) (h : Fin 16) (q k : Fin 2048) : idx_main_v12 (idx_main_v13 (ix4 b h q k)) = ix3 b h q :=
  funext fun a => Fin.ext (by match a with | ⟨0, _⟩ => rfl | ⟨1, _⟩ => rfl | ⟨2, _⟩ => rfl)
theorem idx11 (b : Fin 4) (h : Fin 16) (q k : Fin 2048) : idx_main_v11 (ix3 b h q) k = ix4 b h q k :=
  funext fun a => Fin.ext (by match a with | ⟨0, _⟩ => rfl | ⟨1, _⟩ => rfl | ⟨2, _⟩ => rfl | ⟨3, _⟩ => rfl)
theorem lidx15 (b : Fin 4) (h : Fin 16) (q : Fin 2048) (d : Fin 64) (k : Fin 2048) : lidx_main_v15 (ix4 b h q d) k = ix4 b h q k :=
  funext fun a => Fin.ext (by match a with | ⟨0, _⟩ => rfl | ⟨1, _⟩ => rfl | ⟨2, _⟩ => rfl | ⟨3, _⟩ => rfl)
theorem ridx15 (b : Fin 4) (h : Fin 16) (q : Fin 2048) (d : Fin 64) (k : Fin 2048) : ridx_main_v15 (ix4 b h q d) k = ix4 b h k d :=
  funext fun a => Fin.ext (by match a with | ⟨0, _⟩ => rfl | ⟨1, _⟩ => rfl | ⟨2, _⟩ => rfl | ⟨3, _⟩ => rfl)

/-! ## The stages -/

/-- The masked scores. -/
theorem v3_at (b : Fin 4) (h : Fin 16) (q k : Fin 2048) :
    val_main_v3 (F := Ideal) x0 x1 x3 x4 (ix4 b h q k) = score x0 x1 (x3 ix0) x4 b h q k := by
  rw [val_main_v3_apply, val_main_call0_v0_apply, val_main_cst_apply, val_main_v2_apply, val_main_v0_apply, val_main_v1_apply]
  simp only [lidx0, ridx0]
  rfl

/-- The row maxima: the fold of max from minus infinity over the row, then once more the maximum with minus infinity. -/
theorem v6_at (b : Fin 4) (h : Fin 16) (q : Fin 2048) :
    val_main_v6 (F := Ideal) x0 x1 x3 x4 (ix3 b h q) = rowMax (fun k : Fin 2048 => score x0 x1 (x3 ix0) x4 b h q k) := by
  have hred : S4x16x2048x2048.Reduces [3] S4x16x2048 := by decide
  rw [val_main_v6_apply, val_main_v5_apply, val_main_cst_1_apply]
  unfold val_main_v4
  refine (congrArg (max negInf) ((Host.reduce_eq_fold_single (α := EReal) max (val_main_v3 (F := Ideal) x0 x1 x3 x4)
    (val_main_cst_0 (F := Ideal)) reducesTo_S4x16x2048x2048_S4x16x2048_d3 hred h_S_ (ix3 b h q)).trans
      (Finset.fold_congr (g := fun k : Fin 2048 => score x0 x1 (x3 ix0) x4 b h q k) fun k _ => ?_))).trans (max_negInf_rowMax _)
  show val_main_v3 (F := Ideal) x0 x1 x3 x4 (hred.lift (ix3 b h q) k) = _
  rw [show hred.lift (ix3 b h q) k = ix4 b h q k from
    funext fun a => Fin.ext (by match a with | ⟨0, _⟩ => rfl | ⟨1, _⟩ => rfl | ⟨2, _⟩ => rfl | ⟨3, _⟩ => rfl)]
  exact v3_at x0 x1 x3 x4 b h q k

/-- The exponentials of the scores less their row's maximum. -/
theorem v10_at (b : Fin 4) (h : Fin 16) (q k : Fin 2048) :
    val_main_v10 (F := Ideal) x0 x1 x3 x4 (ix4 b h q k)
      = Ideal.exp (score x0 x1 (x3 ix0) x4 b h q k - rowMax (fun k' : Fin 2048 => score x0 x1 (x3 ix0) x4 b h q k')) := by
  rw [val_main_v10_apply, val_main_v9_apply, v3_at, val_main_v8_apply, val_main_v7_apply, idx78, v6_at]
  rfl

/-- The row sums of the exponentials. -/
theorem v11_at (b : Fin 4) (h : Fin 16) (q : Fin 2048) :
    val_main_v11 (F := Ideal) x0 x1 x3 x4 (ix3 b h q)
      = ∑ k : Fin 2048, Ideal.exp (score x0 x1 (x3 ix0) x4 b h q k - rowMax (fun k' : Fin 2048 => score x0 x1 (x3 ix0) x4 b h q k')) := by
  rw [val_main_v11_apply, val_main_cst_2_apply]
  show Ideal.ofBits .f32 0x00000000#32 + _ = _
  rw [Ideal.ofBits_zero_f32, zero_add]
  refine Finset.sum_congr rfl fun k _ => ?_
  rw [idx11]
  exact v10_at x0 x1 x3 x4 b h q k

/-- The attention weights. -/
theorem v14_at (b : Fin 4) (h : Fin 16) (q k : Fin 2048) :
    val_main_v14 (F := Ideal) x0 x1 x3 x4 (ix4 b h q k) = attn x0 x1 (x3 ix0) x4 b h q k := by
  rw [val_main_v14_apply, v10_at, val_main_v13_apply, val_main_v12_apply, idx1213, v11_at]
  rfl

/-- The context. -/
theorem v15_at (b : Fin 4) (h : Fin 16) (q : Fin 2048) (d : Fin 64) :
    val_main_v15 (F := Ideal) x0 x1 x2 x3 x4 (ix4 b h q d) = ctx x0 x1 x2 (x3 ix0) x4 b h q d := by
  rw [val_main_v15_apply]
  refine Finset.sum_congr rfl fun k _ => ?_
  rw [lidx15, ridx15, v14_at]

/-! ## The two results as arrays -/

theorem attn_eq : val_main_v14 (F := Ideal) x0 x1 x3 x4 = attnArr x0 x1 (x3 ix0) x4 := by
  funext i
  obtain ⟨b, h, q, k, rfl⟩ : ∃ (b : Fin 4) (h : Fin 16) (q k : Fin 2048), i = ix4 b h q k := ⟨i 0, i 1, i 2, i 3, eq_ix4 i⟩
  exact v14_at x0 x1 x3 x4 b h q k

theorem ctx_eq : val_main_v15 (F := Ideal) x0 x1 x2 x3 x4 = ctxArr x0 x1 x2 (x3 ix0) x4 := by
  funext i
  obtain ⟨b, h, q, d, rfl⟩ : ∃ (b : Fin 4) (h : Fin 16) (q : Fin 2048) (d : Fin 64), i = ix4 b h q d := ⟨i 0, i 1, i 2, i 3, eq_ix4 i⟩
  exact v15_at x0 x1 x2 x3 x4 b h q d

end Cert.MaskedAttention.Ref

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.KernelBlock.lean ====
/-
  What one grid point of the kernel computes, entry by entry, from the blocks it loads.

  A grid point loads the scale (a [1, 1] block), a [1, 512, 64] block of Q, [1, 2048, 64] blocks of K and V and a
  [1, 512, 2048] block of the mask as 32-bit words. It scales the Q block, contracts it against the K block's rows, puts
  the literal where the mask word is not zero, takes the row softmax, stores that as the attention block, and
  contracts the softmax against the V block for the context block. Entry (t, σ) of the block of masked scores is
  select(mask[t,σ] ≠ 0, literal, sum over d of (Qblk[t,d] * scale) * Kblk[σ,d]); the stored attention entry is the
  softmax of row t at σ, and the stored context entry (t, d) the sum over σ of that times Vblk[σ,d].
-/
import proofs.«108441_j12790412607562_2_alg».proof.Proof.Gen.KernelIdeal.Skeleton
import Idealize.ShloMosaic.Lib.Pipeline.Value
import Idealize.ShloMosaic.Lib.ValueLayout
import proofs.«108441_j12790412607562_2_alg».proof.Proof.LibMatmulRows
import proofs.«108441_j12790412607562_2_alg».proof.Proof.LibMatmulPlain
import proofs.«108441_j12790412607562_2_alg».proof.Proof.LibSoftmaxRows
import proofs.«108441_j12790412607562_2_alg».proof.Proof.Spec

noncomputable section

open scoped BigOperators

namespace Cert.MaskedAttention.Block

open Cert.KernelIdeal Cert.KernelIdeal.Gen
open Idealize.ShloMosaic Idealize.ShloMosaic.ValueIdx Cert.Lib.SoftmaxRows Cert.MaskedAttention

variable (x0 : Vec Ideal S1x1 .f32) (x1 : Vec Ideal S1x512x64 .f32) (x2 x3 : Vec Ideal S1x2048x64 .f32)
  (x4 : Vec Ideal S1x512x2048 .i32)

/-- The block of masked scores: the scaled Q block against the K block's rows, the literal where the mask word is set. -/
def scoreBlock : FVec Ideal S512x2048 .f32 :=
  select (cmpi .ne (shapeCast S512x2048 x4 shapeCasts_S1x512x2048_S512x2048) (constantI S512x2048 32 0#32))
    (broadcast S512x2048 (Scalar.ofBits (F := Ideal) .f32 0x3089705F#32))
    (matmul dot_S512x64_S2048x64_S512x2048_1_1_0_0_n_n none
      (truncf .bf16 (mulf (shapeCast S512x64 x1 shapeCasts_S1x512x64_S512x64) (broadcast S512x64 (extractAt ![0, 0] x0 inpos_S1x1_p0_0))) bitsLt_bf16_f32)
      (truncf .bf16 (shapeCast S2048x64 x2 shapeCasts_S1x2048x64_S2048x64) bitsLt_bf16_f32)
      (constant S512x2048 .f32 0x00000000#32))

/-- Entry (t, σ) of the block of masked scores. -/
theorem scoreBlock_at (t : Fin 512) (σ : Fin 2048) :
    scoreBlock x0 x1 x2 x4 (ix2 t σ)
      = Scalar.select (IntOp.cmpi .ne (x4 (ix3 (0 : Fin 1) t σ)) 0#32) fill
          (∑ d : Fin 64, (x1 (ix3 (0 : Fin 1) t d) * x0 (ix2 (0 : Fin 1) (0 : Fin 1))) * x2 (ix3 (0 : Fin 1) σ d)) := by
  unfold scoreBlock
  rw [select_apply]
  refine congrArg₂ (fun c v => Scalar.select c fill v) ?_ ?_
  · show IntOp.cmpi .ne (shapeCast S512x2048 x4 _ (ix2 t σ)) 0#32 = _
    rw [shapeCast_1ab_ab_apply]
  · refine (Cert.LibMatmulRows.matmul_zero_apply dot_S512x64_S2048x64_S512x2048_1_1_0_0_n_n_wf none _ _ t σ).trans ?_
    refine Finset.sum_congr rfl fun d _ => ?_
    show (shapeCast S512x64 x1 _ (ix2 t d) * extractAt ![0, 0] x0 _) * shapeCast S2048x64 x2 _ (ix2 σ d) = _
    rw [shapeCast_1ab_ab_apply, shapeCast_1ab_ab_apply]
    exact congrArg (fun z => (x1 (ix3 (0 : Fin 1) t d) * x0 z) * x2 (ix3 (0 : Fin 1) σ d))
      (funext fun a => Fin.ext (by match a with | ⟨0, _⟩ => rfl | ⟨1, _⟩ => rfl))

/-- The softmax block is the row softmax of the masked scores. -/
theorem pay2_at (t : Fin 512) (σ : Fin 2048) :
    k0_pay2 x0 x1 x2 x4 (ix2 t σ) = softmax (fun σ' : Fin 2048 => scoreBlock x0 x1 x2 x4 (ix2 t σ')) σ :=
  softmaxRows_apply (a := 512) (b := 2048) (scoreBlock x0 x1 x2 x4) reduces_S512x2048_S512 (.inl rfl) rfl rfl
    shapeCasts_S512_S512x1 broadcasts_S512x1_S512x2048 t σ

/-- The stored attention block is the softmax block with a leading unit axis. -/
theorem pay3_at (u : Fin 1) (t : Fin 512) (σ : Fin 2048) :
    k0_pay3 x0 x1 x2 x4 (ix3 u t σ) = k0_pay2 x0 x1 x2 x4 (ix2 t σ) :=
  shapeCast_ab_1ab_apply (k0_pay2 x0 x1 x2 x4) _ u t σ

/-- The context block: the softmax block against the V block. -/
theorem pay4_at (t : Fin 512) (d : Fin 64) :
    k0_pay4 x0 x1 x2 x3 x4 (ix2 t d) = ∑ σ : Fin 2048, k0_pay2 x0 x1 x2 x4 (ix2 t σ) * x3 (ix3 (0 : Fin 1) σ d) := by
  unfold k0_pay4
  refine (Cert.LibMatmulPlain.matmul_zero_apply dot_S512x2048_S2048x64_S512x64_1_0_0_1_n_n_wf none _ _ t d).trans ?_
  refine Finset.sum_congr rfl fun σ _ => ?_
  show k0_pay2 x0 x1 x2 x4 (ix2 t σ) * shapeCast S2048x64 x3 _ (ix2 σ d) = _
  rw [shapeCast_1ab_ab_apply]

/-- The stored context block is the context block with a leading unit axis. -/
theorem pay1_at (v : FVec Ideal S512x64 .f32) (u : Fin 1) (t : Fin 512) (d : Fin 64) :
    k0_pay1 v (ix3 u t d) = v (ix2 t d) :=
  shapeCast_ab_1ab_apply v _ u t d

/-- Row t's masked scores, from the loaded blocks. -/
def rowScores (t : Fin 512) : Fin 2048 → EReal := fun σ =>
  Scalar.select (IntOp.cmpi .ne (x4 (ix3 (0 : Fin 1) t σ)) 0#32) fill
    (∑ d : Fin 64, (x1 (ix3 (0 : Fin 1) t d) * x0 (ix2 (0 : Fin 1) (0 : Fin 1))) * x2 (ix3 (0 : Fin 1) σ d))

/-- The stored attention entry. -/
theorem attnBlock_at (u : Fin 1) (t : Fin 512) (σ : Fin 2048) :
    k0_pay3 x0 x1 x2 x4 (ix3 u t σ) = softmax (rowScores x0 x1 x2 x4 t) σ :=
  ((pay3_at x0 x1 x2 x4 u t σ).trans (pay2_at x0 x1 x2 x4 t σ)).trans
    (congrArg (fun f => softmax f σ) (funext fun σ' => scoreBlock_at x0 x1 x2 x4 t σ'))

/-- The stored context entry. -/
theorem ctxBlock_at (u : Fin 1) (t : Fin 512) (d : Fin 64) :
    k0_pay1 (k0_pay4 x0 x1 x2 x3 x4) (ix3 u t d)
      = ∑ σ : Fin 2048, softmax (rowScores x0 x1 x2 x4 t) σ * x3 (ix3 (0 : Fin 1) σ d) := by
  refine ((pay1_at _ u t d).trans (pay4_at x0 x1 x2 x3 x4 t d)).trans (Finset.sum_congr rfl fun σ _ => ?_)
  rw [← attnBlock_at x0 x1 x2 x4 (0 : Fin 1) t σ, pay3_at]

end Cert.MaskedAttention.Block

end
-- ==== Proof.KernelArrays.lean ====
/-
  What the kernel's two result arrays hold after the whole grid has run, as functions of the arrays the region finds.

  The grid is 64 heads by 4 row tiles. Point t works on head t / 4 and rows (t % 4) * 512 … + 511: it reads that head's
  whole K and V, that tile of Q and of the mask, and the scale, and writes that tile of the attention array and of the
  context array. Every row of every head is in exactly one tile, so the tiles cover both result arrays, and each result
  array ends as one function of the arrays the region found: per head g and row r the masked scores
  select(mask[g,r,σ] ≠ 0, literal, sum over d of (Q[g,r,d] * scale) * K[g,σ,d]), their softmax along σ, and that against V.
-/
import proofs.«108441_j12790412607562_2_alg».proof.Proof.Gen.KernelIdeal.Frame
import proofs.«108441_j12790412607562_2_alg».proof.Proof.KernelBlock
import Idealize.ShloMosaic.Lib.Pipeline.Value

set_option maxRecDepth 16384

noncomputable section

open scoped BigOperators

namespace Cert.MaskedAttention.Arrays

open Cert.KernelIdeal Cert.KernelIdeal.Gen
open Idealize.ShloMosaic Idealize.ShloMosaic.TcCoe Idealize.SL.Sem Idealize.ShloMosaic.ValueIdx Idealize.ShloMosaic.Pipeline
open Cert.Lib.SoftmaxRows Cert.MaskedAttention Cert.MaskedAttention.Block

/-! ## The two results over the arrays the region finds -/

section Spec3
variable (A0 : S1x1.Idx → EReal) (A1 A2 A3 : S64x2048x64.Idx → EReal) (A4 : S64x2048x2048.Idx → BitVec 32)

/-- Head g, row r: the masked scores along the keys. -/
def rowScores3 (g : Fin 64) (r : Fin 2048) : Fin 2048 → EReal := fun σ =>
  Scalar.select (IntOp.cmpi .ne (A4 (ix3 g r σ)) 0#32) fill
    (∑ d : Fin 64, (A1 (ix3 g r d) * A0 (ix2 (0 : Fin 1) (0 : Fin 1))) * A2 (ix3 g σ d))

/-- The attention array. -/
def attn3 : S64x2048x2048.Idx → EReal := fun i => softmax (rowScores3 A0 A1 A2 A4 (i 0) (i 1)) (i 2)

/-- The context array. -/
def ctx3 : S64x2048x64.Idx → EReal := fun i =>
  ∑ σ : Fin 2048, softmax (rowScores3 A0 A1 A2 A4 (i 0) (i 1)) σ * A3 (ix3 (i 0) σ (i 2))

variable (X0 : Vec Ideal S1x1 .f32) (X1 : Vec Ideal S1x512x64 .f32) (X2 X3 : Vec Ideal S1x2048x64 .f32)
  (X4 : Vec Ideal S1x512x2048 .i32)

/-- A point's row scores are the array's, when its blocks are the array's tiles. -/
theorem rowScores_eq (g : Fin 64) (r0 : Fin 2048) (r : Fin 512)
    (h0 : X0 (ix2 (0 : Fin 1) (0 : Fin 1)) = A0 (ix2 (0 : Fin 1) (0 : Fin 1)))
    (h1 : ∀ d : Fin 64, X1 (ix3 (0 : Fin 1) r d) = A1 (ix3 g r0 d))
    (h2 : ∀ (σ : Fin 2048) (d : Fin 64), X2 (ix3 (0 : Fin 1) σ d) = A2 (ix3 g σ d))
    (h4 : ∀ σ : Fin 2048, X4 (ix3 (0 : Fin 1) r σ) = A4 (ix3 g r0 σ)) :
    rowScores X0 X1 X2 X4 r = rowScores3 A0 A1 A2 A4 g r0 := by
  funext σ
  unfold rowScores rowScores3
  rw [h0, h4 σ]
  exact congrArg (Scalar.select _ fill) (Finset.sum_congr rfl fun d _ => by rw [h1 d, h2 σ d])

end Spec3

/-! ## The index maps in closed form -/

variable (m : (ℓ : Loc nD τ sig) → Buf (Elt Ideal) ℓ)

theorem t_lt (t : Fin cfg0.N) : t.val < 256 := lt_of_lt_of_eq t.isLt N_0

/-- The head a grid point works on. -/
def headOf (t : Fin cfg0.N) : Fin 64 := ⟨t.val / 4, by have := t_lt t; omega⟩
/-- The array row of a grid point's block row. -/
def rowOf (t : Fin cfg0.N) (r : Fin 512) : Fin 2048 := ⟨t.val % 4 * 512 + r.val, by have := r.isLt; omega⟩

/-- Each window's block index at point t: head t / 4 on the first axis, and tile t % 4 on the second for the windows
    tiled by rows. Decided over the grid's 256 points. -/
theorem idx_facts : ∀ t : Fin cfg0.N,
    win0_0.index t (0 : Fin 2) = 0 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Where each block sits in its array -/

theorem emb0 (t : Fin cfg0.N) : ((cfg0.win 0).blk t).view.emb (ix2 (0 : Fin 1) (0 : Fin 1)) = ix2 (0 : Fin 1) (0 : Fin 1) := by
  obtain ⟨e0, e1, -⟩ := idx_facts t
  funext a; apply Fin.ext
  match a with
  | ⟨0, _⟩ => show win0_0.index t (0 : Fin 2) * 1 + 1 * 0 = 0; omega
  | ⟨1, _⟩ => show win0_0.index t (1 : Fin 2) * 1 + 1 * 0 = 0; omega

theorem emb1 (t : Fin cfg0.N) (u : Fin 1) (r : Fin 512) (d : Fin 64) :
    ((cfg0.win 1).blk t).view.emb (ix3 u r d) = ix3 (headOf t) (rowOf t r) d := by
  obtain ⟨-, -, e0, e1, e2, -⟩ := idx_facts t
  have hu : u.val = 0 := by omega
  funext a; apply Fin.ext
  match a with
  | ⟨0, _⟩ => show win0_1.index t (0 : Fin 3) * 1 + 1 * u.val = t.val / 4; omega
  | ⟨1, _⟩ => show win0_1.index t (1 : Fin 3) * 512 + 1 * r.val = t.val % 4 * 512 + r.val; omega
  | ⟨2, _⟩ => show win0_1.index t (2 : Fin 3) * 64 + 1 * d.val = d.val; omega

theorem emb2 (t : Fin cfg0.N) (u : Fin 1) (σ : Fin 2048) (d : Fin 64) :
    ((cfg0.win 2).blk t).view.emb (ix3 u σ d) = ix3 (headOf t) σ d := by
  obtain ⟨-, -, -, -, -, e0, e1, e2, -⟩ := idx_facts t
  have hu : u.val = 0 := by omega
  funext a; apply Fin.ext
  match a with
  | ⟨0, _⟩ => show win0_2.index t (0 : Fin 3) * 1 + 1 * u.val = t.val / 4; omega
  | ⟨1, _⟩ => show win0_2.index t (1 : Fin 3) * 2048 + 1 * σ.val = σ.val; omega
  | ⟨2, _⟩ => show win0_2.index t (2 : Fin 3) * 64 + 1 * d.val = d.val; omega

theorem emb3 (t : Fin cfg0.N) (u : Fin 1) (σ : Fin 2048) (d : Fin 64) :
    ((cfg0.win 3).blk t).view.emb (ix3 u σ d) = ix3 (headOf t) σ d := by
  obtain ⟨-, -, -, -, -, -, -, -, e0, e1, e2, -⟩ := idx_facts t
  have hu : u.val = 0 := by omega
  funext a; apply Fin.ext
  match a with
  | ⟨0, _⟩ => show win0_3.index t (0 : Fin 3) * 1 + 1 * u.val = t.val / 4; omega
  | ⟨1, _⟩ => show win0_3.index t (1 : Fin 3) * 2048 + 1 * σ.val = σ.val; omega
  | ⟨2, _⟩ => show win0_3.index t (2 : Fin 3) * 64 + 1 * d.val = d.val; omega

theorem emb4 (t : Fin cfg0.N) (u : Fin 1) (r : Fin 512) (σ : Fin 2048) :
    ((cfg0.win 4).blk t).view.emb (ix3 u r σ) = ix3 (headOf t) (rowOf t r) σ := by
  obtain ⟨-, -, -, -, -, -, -, -, -, -, -, e0, e1, e2, -⟩ := idx_facts t
  have hu : u.val = 0 := by omega
  funext a; apply Fin.ext
  match a with
  | ⟨0, _⟩ => show win0_4.index t (0 : Fin 3) * 1 + 1 * u.val = t.val / 4; omega
  | ⟨1, _⟩ => show win0_4.index t (1 : Fin 3) * 512 + 1 * r.val = t.val % 4 * 512 + r.val; omega
  | ⟨2, _⟩ => show win0_4.index t (2 : Fin 3) * 2048 + 1 * σ.val = σ.val; omega

theorem emb5 (t : Fin cfg0.N) (u : Fin 1) (r : Fin 512) (d : Fin 64) :
    ((cfg0.win 5).blk t).view.emb (ix3 u r d) = ix3 (headOf t) (rowOf t r) d := by
  obtain ⟨-, -, -, -, -, -, -, -, -, -, -, -, -, -, e0, e1, e2, -⟩ := idx_facts t
  have hu : u.val = 0 := by omega
  funext a; apply Fin.ext
  match a with
  | ⟨0, _⟩ => show win0_5.index t (0 : Fin 3) * 1 + 1 * u.val = t.val / 4; omega
  | ⟨1, _⟩ => show win0_5.index t (1 : Fin 3) * 512 + 1 * r.val = t.val % 4 * 512 + r.val; omega
  | ⟨2, _⟩ => show win0_5.index t (2 : Fin 3) * 64 + 1 * d.val = d.val; omega

theorem emb6 (t : Fin cfg0.N) (u : Fin 1) (r : Fin 512) (σ : Fin 2048) :
    ((cfg0.win 6).blk t).view.emb (ix3 u r σ) = ix3 (headOf t) (rowOf t r) σ := by
  obtain ⟨-, -, -, -, -, -, -, -, -, -, -, -, -, -, -, -, -, e0, e1, e2⟩ := idx_facts t
  have hu : u.val = 0 := by omega
  funext a; apply Fin.ext
  match a with
  | ⟨0, _⟩ => show win0_6.index t (0 : Fin 3) * 1 + 1 * u.val = t.val / 4; omega
  | ⟨1, _⟩ => show win0_6.index t (1 : Fin 3) * 512 + 1 * r.val = t.val % 4 * 512 + r.val; omega
  | ⟨2, _⟩ => show win0_6.index t (2 : Fin 3) * 2048 + 1 * σ.val = σ.val; omega

/-- A point's row scores are the arrays' at its head and row. -/
theorem rowScores_point (c : Dev nD) (t : Fin cfg0.N) (r : Fin 512) :
    rowScores (iblk m c 0 t) (iblk m c 1 t) (iblk m c 2 t) (iblk m c 4 t) r
      = rowScores3 (V m c main_v4) (V m c main_v0) (V m c main_v1) (V m c main_v5) (headOf t) (rowOf t r) :=
  rowScores_eq (V m c main_v4) (V m c main_v0) (V m c main_v1) (V m c main_v5)
    (iblk m c 0 t) (iblk m c 1 t) (iblk m c 2 t) (iblk m c 4 t) (headOf t) (rowOf t r) r
    (show V m c main_v4 (((cfg0.win 0).blk t).view.emb (ix2 (0 : Fin 1) (0 : Fin 1))) = _ from congrArg (V m c main_v4) (emb0 t))
    (fun d => show V m c main_v0 (((cfg0.win 1).blk t).view.emb (ix3 (0 : Fin 1) r d)) = _ from congrArg (V m c main_v0) (emb1 t 0 r d))
    (fun σ d => show V m c main_v1 (((cfg0.win 2).blk t).view.emb (ix3 (0 : Fin 1) σ d)) = _ from congrArg (V m c main_v1) (emb2 t 0 σ d))
    (fun σ => show V m c main_v5 (((cfg0.win 4).blk t).view.emb (ix3 (0 : Fin 1) r σ)) = _ from congrArg (V m c main_v5) (emb4 t 0 r σ))

/-! ## What each point writes back -/

/-- Point t's attention block is tile t of the attention array. -/
theorem flushed6_eq (c : Dev nD) (t : Fin cfg0.N) :
    (dats m 0 c).flushed 6 t = ((cfg0.win 6).blk t).view.read (Elt Ideal)
      (attn3 (V m c main_v4) (V m c main_v0) (V m c main_v1) (V m c main_v5)) := by
  show (cfg0.win 6).cut (grid0.coords t) ((dats m 0 c).after 6 t) = _
  rw [after0_6]
  unfold out0_6
  rw [View.canon_unit_zero hz3]
  simp only [View.ld_unit_zero (S := S1x1) hz2, View.ld_unit_zero (S := S1x512x64) hz3,
    View.ld_unit_zero (S := S1x2048x64) hz3, View.ld_unit_zero (S := S1x512x2048) hz3]
  funext j
  obtain ⟨u, r, σ, rfl⟩ : ∃ (u : Fin 1) (r : Fin 512) (σ : Fin 2048), j = ix3 u r σ := ⟨j 0, j 1, j 2, eq_ix3 j⟩
  show k0_pay3 (iblk m c 0 t) (iblk m c 1 t) (iblk m c 2 t) (iblk m c 4 t) (ix3 u r σ)
    = attn3 (V m c main_v4) (V m c main_v0) (V m c main_v1) (V m c main_v5) (((cfg0.win 6).blk t).view.emb (ix3 u r σ))
  rw [emb6 t u r σ]
  refine (attnBlock_at (iblk m c 0 t) (iblk m c 1 t) (iblk m c 2 t) (iblk m c 4 t) u r σ).trans ?_
  exact congrArg (fun f => softmax f σ) (rowScores_point m c t r)

/-- Point t's context block is tile t of the context array. -/
theorem flushed5_eq (c : Dev nD) (t : Fin cfg0.N) :
    (dats m 0 c).flushed 5 t = ((cfg0.win 5).blk t).view.read (Elt Ideal)
      (ctx3 (V m c main_v4) (V m c main_v0) (V m c main_v1) (V m c main_v2) (V m c main_v5)) := by
  show (cfg0.win 5).cut (grid0.coords t) ((dats m 0 c).after 5 t) = _
  rw [after0_5]
  unfold out0_5
  rw [View.canon_unit_zero hz3]
  simp only [View.ld_unit_zero (S := S1x1) hz2, View.ld_unit_zero (S := S1x512x64) hz3,
    View.ld_unit_zero (S := S1x2048x64) hz3, View.ld_unit_zero (S := S1x512x2048) hz3]
  funext j
  obtain ⟨u, r, d, rfl⟩ : ∃ (u : Fin 1) (r : Fin 512) (d : Fin 64), j = ix3 u r d := ⟨j 0, j 1, j 2, eq_ix3 j⟩
  show k0_pay1 (k0_pay4 (iblk m c 0 t) (iblk m c 1 t) (iblk m c 2 t) (iblk m c 3 t) (iblk m c 4 t)) (ix3 u r d)
    = ctx3 (V m c main_v4) (V m c main_v0) (V m c main_v1) (V m c main_v2) (V m c main_v5) (((cfg0.win 5).blk t).view.emb (ix3 u r d))
  rw [emb5 t u r d]
  refine (ctxBlock_at (iblk m c 0 t) (iblk m c 1 t) (iblk m c 2 t) (iblk m c 3 t) (iblk m c 4 t) u r d).trans ?_
  show _ = ∑ σ : Fin 2048, softmax (rowScores3 (V m c main_v4) (V m c main_v0) (V m c main_v1) (V m c main_v5) (headOf t) (rowOf t r)) σ
    * V m c main_v2 (ix3 (headOf t) σ d)
  rw [rowScores_point m c t r]
  refine Finset.sum_congr rfl fun σ _ => ?_
  refine congrArg (fun z : EReal => softmax (rowScores3 (V m c main_v4) (V m c main_v0) (V m c main_v1) (V m c main_v5) (headOf t) (rowOf t r)) σ * z) ?_
  show V m c main_v2 (((cfg0.win 3).blk t).view.emb (ix3 (0 : Fin 1) σ d)) = _
  rw [emb3 t 0 σ d]

/-! ## The tiles cover the arrays -/

theorem mem_blk6 (t : Fin cfg0.N) (i : S64x2048x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v6_1).slice (win0_6.rect t)).set ↔ _
  rw [View.set_slice_whole, Rect.mem_set_unit]
  exact Iff.rfl

theorem mem_blk5 (t : Fin cfg0.N) (i : S64x2048x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v6_0).slice (win0_5.rect t)).set ↔ _
  rw [View.set_slice_whole, Rect.mem_set_unit]
  exact Iff.rfl

/-- Row i₁ of head i₀ is in the tile of point i₀ * 4 + i₁ / 512. -/
theorem cover6 (i : S64x2048x2048.Idx) : ∃ t : Fin cfg0.N, (cfg0.win 6).flush t = true ∧ i ∈ ((cfg0.win 6).blk t).view.set := by
  have h0 : (i 0).val < 64 := (i 0).isLt
  have h1 : (i 1).val < 2048 := (i 1).isLt
  have h2 : (i 2).val < 2048 := (i 2).isLt
  let t : Fin cfg0.N := ⟨(i 0).val * 4 + (i 1).val / 512, by rw [show cfg0.N = 256 from N_0]; omega⟩
  have ht : t.val = (i 0).val * 4 + (i 1).val / 512 := rfl
  obtain ⟨-, -, -, -, -, -, -, -, -, -, -, -, -, -, -, -, -, e0, e1, e2⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

theorem cover5 (i : S64x2048x64.Idx) : ∃ t : Fin cfg0.N, (cfg0.win 5).flush t = true ∧ i ∈ ((cfg0.win 5).blk t).view.set := by
  have h0 : (i 0).val < 64 := (i 0).isLt
  have h1 : (i 1).val < 2048 := (i 1).isLt
  have h2 : (i 2).val < 64 := (i 2).isLt
  let t : Fin cfg0.N := ⟨(i 0).val * 4 + (i 1).val / 512, by rw [show cfg0.N = 256 from N_0]; omega⟩
  have ht : t.val = (i 0).val * 4 + (i 1).val / 512 := rfl
  obtain ⟨-, -, -, -, -, -, -, -, -, -, -, -, -, -, e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-! ## The arrays after the run -/

/-- The attention array after the last point. -/
theorem final6 (c : Dev nD) : (dats m 0 c).arrAt 6 cfg0.N = attn3 (V m c main_v4) (V m c main_v0) (V m c main_v1) (V m c main_v5) :=
  (dats m 0 c).arrAt_eq_of_cover 6 _ (fun t _ => flushed6_eq m c t) cover6

/-- The context array after the last point. -/
theorem final5 (c : Dev nD) : (dats m 0 c).arrAt 5 cfg0.N = ctx3 (V m c main_v4) (V m c main_v0) (V m c main_v1) (V m c main_v2) (V m c main_v5) :=
  (dats m 0 c).arrAt_eq_of_cover 5 _ (fun t _ => flushed5_eq m c t) cover5

end Cert.MaskedAttention.Arrays

end
-- ==== Proof.KernelRun.lean ====
/-
  The kernel's run, with both results named as functions of the argument arrays.

  Before the region the host reshapes Q, K, V from [4, 16, 2048, 64] to [64, 2048, 64], the mask from
  [4, 16, 2048, 2048] to [64, 2048, 2048] and widens its bits to 32-bit words, and reshapes the scale to [1, 1]; after
  it the host reshapes the two result arrays back to four axes. So each result of the program is the reshape of the
  region's result array, which is the function of the reshaped arguments that the tiles were shown to fill.
-/
import proofs.«108441_j12790412607562_2_alg».proof.Proof.KernelArrays
import Idealize.ShloMosaic.Lib.StableHlo.Run

set_option maxRecDepth 16384

noncomputable section

namespace Cert.MaskedAttention.Run

open Cert.KernelIdeal Cert.KernelIdeal.Gen
open Idealize.ShloMosaic Idealize.ShloMosaic.TcCoe Idealize.SL.Sem Idealize.ShloMosaic.ValueIdx Idealize.ShloMosaic.Pipeline
open Idealize.ShloMosaic.StableHlo
open Cert.MaskedAttention Cert.MaskedAttention.Arrays

variable (m : (ℓ : Loc nD τ sig) → Buf (Elt Ideal) ℓ) (ρ : Dev nD → PrngReg)

/-! ## The arrays the region finds -/

theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results; rfl

theorem V_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results; rfl

theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results; rfl

theorem V_v4 (c : Dev nD) : (V m c main_v4 : S1x1.Idx → EReal)
    = shapeCast S1x1 (m ((c : Thread nD τ).loc main_arg3)) shapeCasts_S_S1x1 := by
  show StableHlo.after hostOps0 (fun b => m (c, b)) (Proc.devRef .tc main_v4) = _
  after_results; rfl

theorem V_v5 (c : Dev nD) : (V m c main_v5 : S64x2048x2048.Idx → BitVec 32)
    = extui 32 (shapeCast S64x2048x2048 (m ((c : Thread nD τ).loc main_arg4)) shapeCasts_S4x16x2048x2048_S64x2048x2048) natLt_1_32 := by
  show StableHlo.after hostOps0 (fun b => m (c, b)) (Proc.devRef .tc main_v5) = _
  after_results; rfl

/-! ## The two results over the argument arrays -/

section Results
variable (a0 a1 a2 : S4x16x2048x64.Idx → EReal) (a3 : S_.Idx → EReal) (a4 : S4x16x2048x2048.Idx → BitVec 1)

/-- The attention result: the region's attention array over the reshaped arguments, reshaped back. -/
def kernelAttn : S4x16x2048x2048.Idx → EReal :=
  shapeCast S4x16x2048x2048
    (attn3 (shapeCast S1x1 a3 shapeCasts_S_S1x1) (shapeCast S64x2048x64 a0 shapeCasts_S4x16x2048x64_S64x2048x64)
      (shapeCast S64x2048x64 a1 shapeCasts_S4x16x2048x64_S64x2048x64)
      (extui 32 (shapeCast S64x2048x2048 a4 shapeCasts_S4x16x2048x2048_S64x2048x2048) natLt_1_32))
    shapeCasts_S64x2048x2048_S4x16x2048x2048

/-- The context result likewise. -/
def kernelCtx : S4x16x2048x64.Idx → EReal :=
  shapeCast S4x16x2048x64
    (ctx3 (shapeCast S1x1 a3 shapeCasts_S_S1x1) (shapeCast S64x2048x64 a0 shapeCasts_S4x16x2048x64_S64x2048x64)
      (shapeCast S64x2048x64 a1 shapeCasts_S4x16x2048x64_S64x2048x64)
      (shapeCast S64x2048x64 a2 shapeCasts_S4x16x2048x64_S64x2048x64)
      (extui 32 (shapeCast S64x2048x2048 a4 shapeCasts_S4x16x2048x2048_S64x2048x2048) natLt_1_32))
    shapeCasts_S64x2048x64_S4x16x2048x64

end Results

/-! ## The host operations after the region -/

theorem tail_v8 (c : Dev nD) :
    Pipeline.afterTail₀ cfgs (dats m) 0 (V0 m) [hostOps1] c main_v8
      = kernelAttn (m ((c : Thread nD τ).loc main_arg0)) (m ((c : Thread nD τ).loc main_arg1))
          (m ((c : Thread nD τ).loc main_arg3)) (m ((c : Thread nD τ).loc main_arg4)) := by
  unfold Pipeline.afterTail₀
  show StableHlo.after hostOps1 _ (Proc.devRef .tc main_v8) = _
  after_results
  rw [(Pipeline.withArrays_arr spec0 launch0.win.arr_inj c _ _ 6).trans (final6 m c), V_v0, V_v1, V_v4, V_v5]
  rfl

theorem tail_v7 (c : Dev nD) :
    Pipeline.afterTail₀ cfgs (dats m) 0 (V0 m) [hostOps1] c main_v7
      = kernelCtx (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v7) = _
  after_results
  rw [(Pipeline.withArrays_arr spec0 launch0.win.arr_inj c _ _ 5).trans (final5 m c), V_v0, V_v1, V_v2, V_v4, V_v5]
  rfl

/-! ## The run -/

/-- Every weakly fair execution of the kernel program terminates with the context and attention results at their
    functions of the arguments, and the arguments unchanged. -/
theorem run : θ_run defs (onTc (τ := τ) (main (F := Ideal))) ⟨m, fun _ => 0, ρ⟩ fun r => ∀ c : Dev nD,
      r.2.mem ((c.tc : Thread nD τ).loc main_v7) = kernelCtx (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_v8) = kernelAttn (m ((c : Thread nD τ).loc main_arg0)) (m ((c : Thread nD τ).loc main_arg1))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_v7 m c),
      ((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.MaskedAttention.Run

end
-- ==== Proof.Bridge.lean ====
/-
  The kernel's two results are the specification's arrays.

  The kernel works on 64 heads where the specification has 4 batches of 16 heads: head b * 16 + h of the reshaped
  arrays is (b, h) of the arguments, and reshaping back undoes it, because both layouts put entry (b, h, q, ·) at the same
  row-major position. The mask's bit widened to a 32-bit word is non-zero exactly when the bit is set. The scale reshaped to
  [1, 1] reads the scale. What is left is the one law between the two sides: the kernel scales Q before contracting with K,
  the specification scales the contracted sum; with Q, K and the scale real numbers these agree.
-/
import proofs.«108441_j12790412607562_2_alg».proof.Proof.KernelRun
import proofs.«108441_j12790412607562_2_alg».proof.Proof.Spec
import Idealize.ShloMosaic.Lib.Pipeline.Value

noncomputable section

open scoped BigOperators

namespace Cert.MaskedAttention.Bridge

open Cert.KernelIdeal Cert.KernelIdeal.Gen
open Idealize.ShloMosaic Idealize.ShloMosaic.ValueIdx Cert.Lib.SoftmaxRows
open Cert.MaskedAttention Cert.MaskedAttention.Arrays Cert.MaskedAttention.Run

variable (a0 a1 a2 : S4x16x2048x64.Idx → EReal) (a3 : S_.Idx → EReal) (a4 : S4x16x2048x2048.Idx → BitVec 1)

/-- Head h of batch b, among the 64 heads. -/
def headIx (b : Fin 4) (h : Fin 16) : Fin 64 := ⟨b.val * 16 + h.val, by have := b.isLt; have := h.isLt; omega⟩

/-- A mask bit widened to 32 bits is non-zero exactly when it is set. -/
theorem mask_word : ∀ x : BitVec 1, IntOp.cmpi .ne (x.setWidth 32) 0#32 = x := by decide

/-- A [4, 16, 2048, 64] array reshaped to [64, 2048, 64], at head b * 16 + h. -/
theorem cast_qkv (a : S4x16x2048x64.Idx → EReal) (b : Fin 4) (h : Fin 16) (q : Fin 2048) (d : Fin 64) :
    shapeCast S64x2048x64 a shapeCasts_S4x16x2048x64_S64x2048x64 (ix3 (headIx b h) q d) = a (ix4 b h q d) :=
  shapeCast_apply a _ _ _ (by
    rw [Shape.rowMajor_val_four, Shape.rowMajor_val_three]
    show ((b.val * 16 + h.val) * 2048 + q.val) * 64 + d.val = ((b.val * 16 + h.val) * 2048 + q.val) * 64 + d.val
    rfl)

/-- The mask reshaped to [64, 2048, 2048], at head b * 16 + h. -/
theorem cast_mask (b : Fin 4) (h : Fin 16) (q k : Fin 2048) :
    shapeCast S64x2048x2048 a4 shapeCasts_S4x16x2048x2048_S64x2048x2048 (ix3 (headIx b h) q k) = a4 (ix4 b h q k) :=
  shapeCast_apply a4 _ _ _ (by
    rw [Shape.rowMajor_val_four, Shape.rowMajor_val_three]
    show ((b.val * 16 + h.val) * 2048 + q.val) * 2048 + k.val = ((b.val * 16 + h.val) * 2048 + q.val) * 2048 + k.val
    rfl)

/-- The scale reshaped to [1, 1] reads the scale. -/
theorem cast_scale : shapeCast S1x1 a3 shapeCasts_S_S1x1 (ix2 (0 : Fin 1) (0 : Fin 1)) = a3 ix0 :=
  shapeCast_apply a3 _ _ _ (by
    have h1 : (S_.rowMajor ix0).val < 1 := (S_.rowMajor ix0).isLt
    have h2 : (S1x1.rowMajor (ix2 (0 : Fin 1) (0 : Fin 1))).val < 1 := (S1x1.rowMajor (ix2 (0 : Fin 1) (0 : Fin 1))).isLt
    omega)

/-- A [64, 2048, 2048] array reshaped back to four axes, at (b, h, q, k). -/
theorem cast_back_attn (X : S64x2048x2048.Idx → EReal) (b : Fin 4) (h : Fin 16) (q k : Fin 2048) :
    shapeCast S4x16x2048x2048 X shapeCasts_S64x2048x2048_S4x16x2048x2048 (ix4 b h q k) = X (ix3 (headIx b h) q k) :=
  shapeCast_apply X _ _ _ (by
    rw [Shape.rowMajor_val_three, Shape.rowMajor_val_four]
    show ((b.val * 16 + h.val) * 2048 + q.val) * 2048 + k.val = ((b.val * 16 + h.val) * 2048 + q.val) * 2048 + k.val
    rfl)

/-- A [64, 2048, 64] array reshaped back to four axes, at (b, h, q, d). -/
theorem cast_back_ctx (X : S64x2048x64.Idx → EReal) (b : Fin 4) (h : Fin 16) (q : Fin 2048) (d : Fin 64) :
    shapeCast S4x16x2048x64 X shapeCasts_S64x2048x64_S4x16x2048x64 (ix4 b h q d) = X (ix3 (headIx b h) q d) :=
  shapeCast_apply X _ _ _ (by
    rw [Shape.rowMajor_val_three, Shape.rowMajor_val_four]
    show ((b.val * 16 + h.val) * 2048 + q.val) * 64 + d.val = ((b.val * 16 + h.val) * 2048 + q.val) * 64 + d.val
    rfl)

section
variable (hQ : ∀ i, ∃ r : ℝ, a0 i = r) (hK : ∀ i, ∃ r : ℝ, a1 i = r) (hs : ∃ r : ℝ, a3 ix0 = r)
include hQ hK hs

/-- Row q of head (b, h): the kernel's masked scores over the reshaped arguments are the specification's. -/
theorem rowScores_bridge (b : Fin 4) (h : Fin 16) (q : Fin 2048) :
    rowScores3 (shapeCast S1x1 a3 shapeCasts_S_S1x1) (shapeCast S64x2048x64 a0 shapeCasts_S4x16x2048x64_S64x2048x64)
        (shapeCast S64x2048x64 a1 shapeCasts_S4x16x2048x64_S64x2048x64)
        (extui 32 (shapeCast S64x2048x2048 a4 shapeCasts_S4x16x2048x2048_S64x2048x2048) natLt_1_32) (headIx b h) q
      = fun k : Fin 2048 => score a0 a1 (a3 ix0) a4 b h q k := by
  funext k
  unfold rowScores3
  rw [extui_apply, cast_mask, mask_word, cast_scale]
  simp only [cast_qkv]
  exact score_of_prescaled a0 a1 (a3 ix0) a4 hQ hK hs b h q k

/-- The kernel's attention result is the specification's attention array. -/
theorem kernelAttn_eq : kernelAttn a0 a1 a3 a4 = attnArr a0 a1 (a3 ix0) a4 := by
  funext i
  obtain ⟨b, h, q, k, rfl⟩ : ∃ (b : Fin 4) (h : Fin 16) (q k : Fin 2048), i = ix4 b h q k := ⟨i 0, i 1, i 2, i 3, eq_ix4 i⟩
  unfold kernelAttn
  rw [cast_back_attn]
  show softmax (rowScores3 _ _ _ _ (headIx b h) q) k = attn a0 a1 (a3 ix0) a4 b h q k
  rw [rowScores_bridge a0 a1 a3 a4 hQ hK hs b h q]
  rfl

/-- The kernel's context result is the specification's context array. -/
theorem kernelCtx_eq : kernelCtx a0 a1 a2 a3 a4 = ctxArr a0 a1 a2 (a3 ix0) a4 := by
  funext i
  obtain ⟨b, h, q, d, rfl⟩ : ∃ (b : Fin 4) (h : Fin 16) (q : Fin 2048) (d : Fin 64), i = ix4 b h q d := ⟨i 0, i 1, i 2, i 3, eq_ix4 i⟩
  unfold kernelCtx
  rw [cast_back_ctx]
  show ∑ σ : Fin 2048, softmax (rowScores3 _ _ _ _ (headIx b h) q) σ
      * shapeCast S64x2048x64 a2 shapeCasts_S4x16x2048x64_S64x2048x64 (ix3 (headIx b h) σ d) = ctx a0 a1 a2 (a3 ix0) a4 b h q d
  rw [rowScores_bridge a0 a1 a3 a4 hQ hK hs b h q]
  unfold ctx attn
  exact Finset.sum_congr rfl fun σ _ => by rw [cast_qkv]

end

end Cert.MaskedAttention.Bridge

end
-- ==== Proof.lean ====
/-
  Masked scaled dot-product attention over Q, K, V : [4, 16, 2048, 64], a scalar scale and a boolean mask
  [4, 16, 2048, 2048]: a tiled kernel against the plain array program, equal on the extended reals.

  Both programs return the context and the attention weights. The weights are the row softmax of the scores
  (Q · Kᵀ) * scale with a fixed small literal put where the mask is set; the context is the weights applied to V. The
  kernel reshapes the arguments to 64 heads, runs a 64 × 4 grid — one head and one tile of 512 query rows per point —
  and reshapes the results back. At each point it scales the Q tile FIRST, contracts it with the head's K, masks, takes
  the row softmax (row maximum from minus infinity, exponentials, row sum, quotient), writes the tile of weights, and
  contracts the weights with the head's V for the tile of context. The reference scales the contracted sum instead, and
  takes one more maximum with minus infinity, which changes nothing.

  So the two sides are the same function of the arguments except for where the scale multiplies:
  sum over d of (Q·s)·K against (sum over d of Q·K)·s. That is distributivity over a finite sum, true for real numbers
  and false in general on the extended reals; the precondition (every float input finite) is used exactly there.
  Everything downstream — mask, softmax, the product with V — is the same expression of equal scores.

  The three frame claims are the generated frames (the reference's is its generated run with the results dropped); the
  idealization rewrote nothing, so that claim is trivial.
-/
import proofs.«108441_j12790412607562_2_alg».proof.Defs
import proofs.«108441_j12790412607562_2_alg».proof.Proof.Gen.Kernel
import proofs.«108441_j12790412607562_2_alg».proof.Proof.Gen.Kernel.Skeleton
import proofs.«108441_j12790412607562_2_alg».proof.Proof.Gen.Kernel.Launch
import proofs.«108441_j12790412607562_2_alg».proof.Proof.Gen.Kernel.Points
import proofs.«108441_j12790412607562_2_alg».proof.Proof.Gen.Kernel.Frame
import proofs.«108441_j12790412607562_2_alg».proof.Proof.Gen.KernelIdeal
import proofs.«108441_j12790412607562_2_alg».proof.Proof.Gen.KernelIdeal.Skeleton
import proofs.«108441_j12790412607562_2_alg».proof.Proof.Gen.KernelIdeal.Launch
import proofs.«108441_j12790412607562_2_alg».proof.Proof.Gen.KernelIdeal.Points
import proofs.«108441_j12790412607562_2_alg».proof.Proof.Gen.KernelIdeal.Frame
import proofs.«108441_j12790412607562_2_alg».proof.Proof.Gen.ReferenceIdeal
import proofs.«108441_j12790412607562_2_alg».proof.Proof.Gen.ReferenceIdeal.Run
import proofs.«108441_j12790412607562_2_alg».proof.Proof.Gen.ReferenceIdeal.Read
import proofs.«108441_j12790412607562_2_alg».proof.Proof.Gen.Pre_finite_inputs
import proofs.«108441_j12790412607562_2_alg».proof.Proof.Finite
import proofs.«108441_j12790412607562_2_alg».proof.Proof.RefSide
import proofs.«108441_j12790412607562_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx
open Cert.MaskedAttention

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's context and attention arrays of the (agreeing) arguments: the kernel by
    its run and the bridge (finiteness used for the scale), the reference by its run read stage by stage. -/
theorem algebraic : Cert.algebraic_KernelIdeal_ReferenceIdeal := by
  intro m ρ m' ρ' hpre hagree
  refine ⟨fun c => ctxArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3) ix0)
      (m ((c.tc : Thread Cert.KernelIdeal.nD Cert.KernelIdeal.τ).loc Cert.KernelIdeal.main_arg4)),
    fun c => attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3) ix0)
      (m ((c.tc : Thread Cert.KernelIdeal.nD Cert.KernelIdeal.τ).loc Cert.KernelIdeal.main_arg4)), ?_, ?_⟩
  · refine (θ_run Cert.KernelIdeal.defs _ _).mono (fun _ h c => ?_) (Cert.MaskedAttention.Run.run m ρ)
    obtain ⟨f0, f1, f2, f3⟩ := Cert.MaskedAttention.Finite.finite_of_pre _ _ _ _ _ (hpre c)
    exact ⟨(h c).1.trans (Bridge.kernelCtx_eq _ _ _ _ _ f0 f1 (f3 ix0)),
      (h c).2.1.trans (Bridge.kernelAttn_eq _ _ _ _ f0 f1 (f3 ix0)), (h c).2.2⟩
  · refine (θ_run Cert.ReferenceIdeal.defs _ _).mono (fun _ h c => ?_) (Cert.ReferenceIdeal.Value.run (F := Ideal) m' ρ')
    refine ⟨(h c).1.trans (((Cert.ReferenceIdeal.Read.val_main_v15_eq _ _ _ _ _).trans (Ref.ctx_eq _ _ _ _ _)).trans ?_),
      (h c).2.1.trans (((Cert.ReferenceIdeal.Read.val_main_v14_eq _ _ _ _).trans (Ref.attn_eq _ _ _ _)).trans ?_), (h c).2.2⟩
    · rw [(hagree c).1, (hagree c).2.1, (hagree c).2.2.1, (hagree c).2.2.2.1, (hagree c).2.2.2.2]
    · rw [(hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
